-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S1024x1024 : Shape := ⟨2, ![1024, 1024]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4x2048x1024 .f32) (main_arg1 : FVec F S1024x1024 .f32) (main_arg2 : FVec F S1024x1024 .f32) (main_arg3 : FVec F S1024x1024 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4x2048x1024 : Shape := ⟨3, ![4, 2048, 1024]⟩
abbrev S1024x1024 : Shape := ⟨2, ![1024, 1024]⟩
abbrev S1x2048x1024 : Shape := ⟨3, ![1, 2048, 1024]⟩
abbrev S1x128x1024 : Shape := ⟨3, ![1, 128, 1024]⟩
abbrev S2048x1024 : Shape := ⟨2, ![2048, 1024]⟩
abbrev S128x1024 : Shape := ⟨2, ![128, 1024]⟩
abbrev S128x2048 : Shape := ⟨2, ![128, 2048]⟩
abbrev S128 : Shape := ⟨1, ![128]⟩
abbrev S128x1 : Shape := ⟨2, ![128, 1]⟩

abbrev nBuf : Space → Nat
  | .hbm => 8
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .bf16⟩
  | .hbm, ⟨5, _⟩ => ⟨S1024x1024, .bf16⟩
  | .hbm, ⟨6, _⟩ => ⟨S1024x1024, .bf16⟩
  | .hbm, ⟨7, _⟩ => ⟨S4x2048x1024, .f32⟩
  | .local _ .vmem, ⟨0, _⟩ => ⟨S1x2048x1024, .f32⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x128x1024, .f32⟩
  | .local _ .vmem, ⟨5, _⟩ => ⟨S1x128x1024, .f32⟩
  | .local _ .vmem, ⟨6, _⟩ => ⟨S2048x1024, .bf16⟩
  | .local _ .vmem, ⟨7, _⟩ => ⟨S2048x1024, .bf16⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c128_i32 : BitVec 32 := 128#32
  let v3 : BitVec 32 := Scalar.muli arg1 c128_i32
  v3
def k0_off1 (i : grid0.Coords) : Fin 3 → Nat :=
  let c0 : Index := 0#32
  let arg1 : BitVec 32 := BitVec.ofNat 32 (i 1).val
  let c128_i32 : BitVec 32 := 128#32
  let v3 : BitVec 32 := Scalar.muli arg1 c128_i32
  let v4 : BitVec 32 := v3
  let v5 : Index := Scalar.indexCast v4
  let c0_1 : Index := 0#32
  ![0, v5.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x2048x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bitsLt_bf16_f32 : FTy.bits .bf16 < FTy.bits .f32
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  h_S1x128x1024 : 0 < S1x128x1024.numel
  shapeCasts_S1x128x1024_S128x1024 : S1x128x1024.ShapeCasts S128x1024
  reduces_S128x2048_S128 : S128x2048.Reduces [1] S128
  shapeCasts_S128_S128x1 : S128.ShapeCasts S128x1
  broadcasts_S128x1_S128x2048 : S128x1.Broadcasts S128x2048
  inb_S1x128x1024_S1x128x1024_0_0_0 : ∀ a, (![0, 0, 0] : Fin 3 → Nat) a + S1x128x1024.size a ≤ S1x128x1024.size a
  shapeCasts_S128x1024_S1x128x1024 : S128x1024.ShapeCasts S1x128x1024
  dot_S2048x1024_S1024x1024_S2048x1024_1_0_0_1_n_n_wf : DotDims.WF S2048x1024 S1024x1024 S2048x1024 [1] [0] [0] [1] [] []
  dot_S128x1024_S1024x1024_S128x1024_1_0_0_1_n_n_wf : DotDims.WF S128x1024 S1024x1024 S128x1024 [1] [0] [0] [1] [] []
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  hrank0 : 0 < grid0.rank
  k0_mult1_dvd : ∀ i : grid0.Coords, 128 ∣ (k0_mult1 i).toNat
  k0_off1_inb : ∀ i : grid0.Coords, ∀ a, (k0_off1 i) a + S1x128x1024.size a ≤ S1x2048x1024.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048x1024.size a ≤ S4x2048x1024.size a
  hwx0_0 : ∀ i : grid0.Coords, EltTy.bits .f32 = 32 ∨ (Rect.block (s := S4x2048x1024) S1x2048x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x1024.size a ≤ S4x2048x1024.size a
  hwx0_4 : ∀ i : grid0.Coords, EltTy.bits .f32 = 32 ∨ (Rect.block (s := S4x2048x1024) S1x128x1024.size (cc0_transform_4 i) (hinb0_4 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S128x1024_S1024x1024_S128x1024_1_0_0_1_n_n : DotDims S128x1024 S1024x1024 S128x1024 where
  lhsContracting := [1]
  rhsContracting := [0]
  lhsNonContracting := [0]
  rhsNonContracting := [1]
  lhsBatch := []
  rhsBatch := []
  wf := dot_S128x1024_S1024x1024_S128x1024_1_0_0_1_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_arg0) S1x2048x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x128x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S1024x1024 : Shape := ⟨2, ![1024, 1024]⟩
abbrev S4x2048x2048 : Shape := ⟨3, ![4, 2048, 2048]⟩
abbrev S_ : Shape := ⟨0, ![]⟩
abbrev S4x2048 : Shape := ⟨2, ![4, 2048]⟩
abbrev S4x2048x1 : Shape := ⟨3, ![4, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4x2048x1024, .f32⟩
  | .hbm, ⟨5, _⟩ => ⟨S4x2048x1024, .f32⟩
  | .hbm, ⟨6, _⟩ => ⟨S4x2048x1024, .f32⟩
  | .hbm, ⟨7, _⟩ => ⟨S4x2048x2048, .f32⟩
  | .hbm, ⟨8, _⟩ => ⟨S_, .f32⟩
  | .hbm, ⟨9, _⟩ => ⟨S_, .f32⟩
  | .hbm, ⟨10, _⟩ => ⟨S4x2048x2048, .f32⟩
  | .hbm, ⟨11, _⟩ => ⟨S4x2048x2048, .f32⟩
  | .hbm, ⟨12, _⟩ => ⟨S_, .f32⟩
  | .hbm, ⟨13, _⟩ => ⟨S4x2048, .f32⟩
  | .hbm, ⟨14, _⟩ => ⟨S_, .f32⟩
  | .hbm, ⟨15, _⟩ => ⟨S4x2048, .f32⟩
  | .hbm, ⟨16, _⟩ => ⟨S4x2048, .f32⟩
  | .hbm, ⟨17, _⟩ => ⟨S4x2048x1, .f32⟩
  | .hbm, ⟨18, _⟩ => ⟨S4x2048x2048, .f32⟩
  | .hbm, ⟨19, _⟩ => ⟨S4x2048x2048, .f32⟩
  | .hbm, ⟨20, _⟩ => ⟨S4x2048x2048, .f32⟩
  | .hbm, ⟨21, _⟩ => ⟨S_, .f32⟩
  | .hbm, ⟨22, _⟩ => ⟨S4x2048, .f32⟩
  | .hbm, ⟨23, _⟩ => ⟨S4x2048x1, .f32⟩
  | .hbm, ⟨24, _⟩ => ⟨S4x2048x2048, .f32⟩
  | .hbm, ⟨25, _⟩ => ⟨S4x2048x2048, .f32⟩
  | .hbm, ⟨26, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S4x2048x2048 : S_.BroadcastsInDim S4x2048x2048 (![] : Fin 0 → Fin S4x2048x2048.rank)
  reducesTo_S4x2048x2048_S4x2048_d2 : S4x2048x2048.ReducesTo [2] S4x2048
  h_S_ : 0 < S_.numel
  bcast_S_S4x2048 : S_.BroadcastsInDim S4x2048 (![] : Fin 0 → Fin S4x2048.rank)
  bcast_S4x2048_S4x2048x1_0_1 : S4x2048.BroadcastsInDim S4x2048x1 (![0, 1] : Fin 2 → Fin S4x2048x1.rank)
  bcast_S4x2048x1_S4x2048x2048_0_1_2 : S4x2048x1.BroadcastsInDim S4x2048x2048 (![0, 1, 2] : Fin 3 → Fin S4x2048x2048.rank)
  dot_S4x2048x1024_S1024x1024_S4x2048x1024_2_0_01_1_n_n_wf : DotDims.WF S4x2048x1024 S1024x1024 S4x2048x1024 [2] [0] [0, 1] [1] [] []
  dot_S4x2048x1024_S4x2048x1024_S4x2048x2048_2_2_1_1_0_0_wf : DotDims.WF S4x2048x1024 S4x2048x1024 S4x2048x2048 [2] [2] [1] [1] [0] [0]
  dot_S4x2048x2048_S4x2048x1024_S4x2048x1024_2_1_1_2_0_0_wf : DotDims.WF S4x2048x2048 S4x2048x1024 S4x2048x1024 [2] [1] [1] [2] [0] [0]

variable [Facts₀]

def dot_S4x2048x1024_S1024x1024_S4x2048x1024_2_0_01_1_n_n : DotDims S4x2048x1024 S1024x1024 S4x2048x1024 where
  lhsContracting := [2]
  rhsContracting := [0]
  lhsNonContracting := [0, 1]
  rhsNonContracting := [1]
  lhsBatch := []
  rhsBatch := []
  wf := dot_S4x2048x1024_S1024x1024_S4x2048x1024_2_0_01_1_n_n_wf
def dot_S4x2048x1024_S4x2048x1024_S4x2048x2048_2_2_1_1_0_0 : DotDims S4x2048x1024 S4x2048x1024 S4x2048x2048 where
  lhsContracting := [2]
  rhsContracting := [2]
  lhsNonContracting := [1]
  rhsNonContracting := [1]
  lhsBatch := [0]
  rhsBatch := [0]
  wf := dot_S4x2048x1024_S4x2048x1024_S4x2048x2048_2_2_1_1_0_0_wf
def dot_S4x2048x2048_S4x2048x1024_S4x2048x1024_2_1_1_2_0_0 : DotDims S4x2048x2048 S4x2048x1024 S4x2048x1024 where
  lhsContracting := [2]
  rhsContracting := [1]
  lhsNonContracting := [1]
  rhsNonContracting := [2]
  lhsBatch := [0]
  rhsBatch := [0]
  wf := dot_S4x2048x2048_S4x2048x1024_S4x2048x1024_2_1_1_2_0_0_wf

class Facts : Prop extends Facts₀ where

variable [Facts]
-- ==== Proof.AttentionSpec.lean ====
/-
  Single-head attention over the extended reals, row by row, and the few facts about its constants.

  For one query row `q` (1024 entries), keys `K` and values `V` (2048 rows of 1024 entries each):
    score j   = (∑ₑ q e · K j e) · c            with c the float word 2⁻⁵ = 1/32,
    rowMax    = the maximum of the scores, taken from −∞,
    expRow j  = exp (score j − rowMax),
    softmax j = expRow j / ∑ⱼ' expRow j',
    attend d  = ∑ⱼ softmax j · V j d.
  A projection row is (x W) e = ∑ₖ x k · W k e; queries, keys and values are projections of the same input.
  `attention` puts these together over the arrays x[4,2048,1024] and wq, wk, wv [1024,1024]: entry (b, i, d) attends
  from row i of batch b to all 2048 rows of batch b.

  Two laws relate the two spellings of the score's scale and of the row maximum:
    dividing by √1024 is multiplying by 1/32 on every extended real (1024 = 32², and a quotient by a nonzero real
    is the product with its reciprocal, also at ±∞);
    a maximum taken from −∞ is at least −∞, so taking its maximum with −∞ once more changes nothing.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The word both programs start a row's maximum from: f32 −∞. -/
abbrev negInf : EReal := Ideal.ofBits .f32 0xFF800000#32

/-- The word the scores are multiplied by: f32 2⁻⁵. -/
abbrev scale : EReal := Ideal.ofBits .f32 0x3D000000#32

/-- One row of a projection: (x W) e = ∑ₖ x k · W k e. -/
def projRow (x : Fin 1024 → EReal) (W : Fin 1024 → Fin 1024 → EReal) (e : Fin 1024) : EReal :=
  ∑ k : Fin 1024, x k * W k e

/-- The scaled score of a query row against key row `j`. -/
def score (q : Fin 1024 → EReal) (K : Fin 2048 → Fin 1024 → EReal) (j : Fin 2048) : EReal :=
  (∑ e : Fin 1024, q e * K j e) * scale

/-- A row's maximum, from −∞. -/
def rowMax (s : Fin 2048 → EReal) : EReal :=
  (Finset.univ : Finset (Fin 2048)).fold max negInf s

/-- The exponentials of a row's entries less its maximum. -/
def expRow (s : Fin 2048 → EReal) (j : Fin 2048) : EReal :=
  Ideal.exp (s j - rowMax s)

/-- The row normalised by the sum of its exponentials. -/
def softmax (s : Fin 2048 → EReal) (j : Fin 2048) : EReal :=
  Ideal.div (expRow s j) (∑ j' : Fin 2048, expRow s j')

/-- The softmax-weighted sum of the value rows, at column `d`. -/
def attend (q : Fin 1024 → EReal) (K V : Fin 2048 → Fin 1024 → EReal) (d : Fin 1024) : EReal :=
  ∑ j : Fin 2048, softmax (score q K) j * V j d

/-- Attention over the whole arrays: entry (b, i, d) is row i of batch b attending to the rows of batch b, with
    queries, keys and values the projections of x by wq, wk, wv. -/
def attention (x : (⟨3, ![4, 2048, 1024]⟩ : Shape).Idx → EReal) (wq wk wv : (⟨2, ![1024, 1024]⟩ : Shape).Idx → EReal) :
    (⟨3, ![4, 2048, 1024]⟩ : Shape).Idx → EReal := fun i =>
  attend (projRow (fun k => x (ix3 (i 0) (i 1) k)) (fun k e => wq (ix2 k e)))
    (fun j => projRow (fun k => x (ix3 (i 0) j k)) (fun k e => wk (ix2 k e)))
    (fun j => projRow (fun k => x (ix3 (i 0) j k)) (fun k e => wv (ix2 k e)))
    (i 2)

/-- The scale word is the rational 1/32. -/
theorem scale_eq : scale = ((1 / 32 : ℝ) : EReal) := by
  simp [scale, Ideal.ofBits, Ideal.ieee, -EReal.coe_mul]; norm_num

/-- The word 1024.0 is the real 1024. -/
theorem ofBits_1024 : Ideal.ofBits .f32 0x44800000#32 = ((1024 : ℝ) : EReal) := by
  simp [Ideal.ofBits, Ideal.ieee, -EReal.coe_mul]; norm_num

/-- √1024 = 32. -/
theorem sqrt_1024 : Ideal.sqrt (Ideal.ofBits .f32 0x44800000#32) = ((32 : ℝ) : EReal) := by
  rw [ofBits_1024, Ideal.sqrt_coe, if_neg (by norm_num)]
  congr 1
  rw [show (1024 : ℝ) = 32 ^ 2 by norm_num]
  exact Real.sqrt_sq (by norm_num)

/-- Dividing by √1024 is multiplying by the scale word, on every extended real. -/
theorem div_sqrt_eq_mul_scale (x : EReal) :
    Ideal.div x (Ideal.sqrt (Ideal.ofBits .f32 0x44800000#32)) = x * scale := by
  rw [sqrt_1024, Ideal.div_coe (by norm_num : (32 : ℝ) ≠ 0), scale_eq]

/-- A maximum taken from −∞ absorbs one more −∞. -/
theorem max_negInf_rowMax (s : Fin 2048 → EReal) : max negInf (rowMax s) = rowMax s :=
  max_eq_right ((Finset.le_fold_max _).2 (Or.inl le_rfl))

end Cert.Attention

end
-- ==== Proof.RefAttention.lean ====
/-
  The reference program computes `Cert.Attention.attention`.

  Read one stage at a time, at an index (b, i, ·) of batch b and query row i:
    the three projections are projection rows of x by wq, wk, wv;
    the scores are the sums ∑ₑ q e · k e divided by √1024, which is the product with the scale word 2⁻⁵;
    the row maximum is the fold of max from −∞ over the 2048 scores of the row — the program takes one more maximum
      with −∞, which the fold absorbs;
    the exponentials, their sum from 0, the quotient and the final weighted sum are the specification's, term by term.
-/
import proofs.«133282_j2645699854594_2_alg».proof.Proof.Gen.ReferenceIdeal.Read
import proofs.«133282_j2645699854594_2_alg».proof.Proof.AttentionSpec

noncomputable section

namespace Cert.ReferenceIdeal.RefValue

open Cert.ReferenceIdeal Cert.ReferenceIdeal.Gen Cert.ReferenceIdeal.Read Cert.Attention
open Idealize.ShloMosaic Idealize.ShloMosaic.ValueIdx

variable (x : (⟨S4x2048x1024, .f32⟩ : BufTy).Contents (Elt Ideal)) (wq wk wv : (⟨S1024x1024, .f32⟩ : BufTy).Contents (Elt Ideal))

/-! ## The composed index functions, at coordinates -/

theorem lq (b : Fin 4) (i : Fin 2048) (e k : Fin 1024) : lidx_main_v0 (ix3 b i e) k = ix3 b i k :=
  funext fun a => Fin.ext (by match a with | ⟨0, _⟩ => rfl | ⟨1, _⟩ => rfl | ⟨2, _⟩ => rfl)
theorem rq (b : Fin 4) (i : Fin 2048) (e k : Fin 1024) : ridx_main_v0 (ix3 b i e) k = ix2 k e :=
  funext fun a => Fin.ext (by match a with | ⟨0, _⟩ => rfl | ⟨1, _⟩ => rfl)
theorem lk (b : Fin 4) (i : Fin 2048) (e k : Fin 1024) : lidx_main_v1 (ix3 b i e) k = ix3 b i k :=
  funext fun a => Fin.ext (by match a with | ⟨0, _⟩ => rfl | ⟨1, _⟩ => rfl | ⟨2, _⟩ => rfl)
theorem rk (b : Fin 4) (i : Fin 2048) (e k : Fin 1024) : ridx_main_v1 (ix3 b i e) k = ix2 k e :=
  funext fun a => Fin.ext (by match a with | ⟨0, _⟩ => rfl | ⟨1, _⟩ => rfl)
theorem lv (b : Fin 4) (i : Fin 2048) (e k : Fin 1024) : lidx_main_v2 (ix3 b i e) k = ix3 b i k :=
  funext fun a => Fin.ext (by match a with | ⟨0, _⟩ => rfl | ⟨1, _⟩ => rfl | ⟨2, _⟩ => rfl)
theorem rv (b : Fin 4) (i : Fin 2048) (e k : Fin 1024) : ridx_main_v2 (ix3 b i e) k = ix2 k e :=
  funext fun a => Fin.ext (by match a with | ⟨0, _⟩ => rfl | ⟨1, _⟩ => rfl)
theorem ls (b : Fin 4) (i j : Fin 2048) (e : Fin 1024) : lidx_main_v3 (ix3 b i j) e = ix3 b i e :=
  funext fun a => Fin.ext (by match a with | ⟨0, _⟩ => rfl | ⟨1, _⟩ => rfl | ⟨2, _⟩ => rfl)
theorem rs (b : Fin 4) (i j : Fin 2048) (e : Fin 1024) : ridx_main_v3 (ix3 b i j) e = ix3 b j e :=
  funext fun a => Fin.ext (by match a with | ⟨0, _⟩ => rfl | ⟨1, _⟩ => rfl | ⟨2, _⟩ => rfl)
theorem lo (b : Fin 4) (i j : Fin 2048) (d : Fin 1024) : lidx_main_v18 (ix3 b i d) j = ix3 b i j :=
  funext fun a => Fin.ext (by match a with | ⟨0, _⟩ => rfl | ⟨1, _⟩ => rfl | ⟨2, _⟩ => rfl)
theorem ro (b : Fin 4) (i j : Fin 2048) (d : Fin 1024) : ridx_main_v18 (ix3 b i d) j = ix3 b j d :=
  funext fun a => Fin.ext (by match a with | ⟨0, _⟩ => rfl | ⟨1, _⟩ => rfl | ⟨2, _⟩ => rfl)
theorem isum (b : Fin 4) (i j : Fin 2048) : idx_main_v14 (ix2 b i) j = ix3 b i j :=
  funext fun a => Fin.ext (by match a with | ⟨0, _⟩ => rfl | ⟨1, _⟩ => rfl | ⟨2, _⟩ => rfl)
theorem imax (b : Fin 4) (i j : Fin 2048) : idx_main_v10 (idx_main_v11 (ix3 b i j)) = ix2 b i :=
  funext fun a => Fin.ext (by match a with | ⟨0, _⟩ => rfl | ⟨1, _⟩ => rfl)
theorem iden (b : Fin 4) (i j : Fin 2048) : idx_main_v15 (idx_main_v16 (ix3 b i j)) = ix2 b i :=
  funext fun a => Fin.ext (by match a with | ⟨0, _⟩ => rfl | ⟨1, _⟩ => rfl)

/-! ## The stages -/

/-- Row i of batch b of x. -/
abbrev xrow (b : Fin 4) (i : Fin 2048) : Fin 1024 → EReal := fun k => x (ix3 b i k)
/-- A weight matrix by coordinates. -/
abbrev mat (w : (⟨S1024x1024, .f32⟩ : BufTy).Contents (Elt Ideal)) : Fin 1024 → Fin 1024 → EReal := fun k e => w (ix2 k e)

theorem proj_q (b : Fin 4) (i : Fin 2048) (e : Fin 1024) :
    val_main_v0 (F := Ideal) x wq (ix3 b i e) = projRow (xrow x b i) (mat wq) e := by
  rw [val_main_v0_apply]; unfold projRow
  exact Finset.sum_congr rfl fun k _ => by rw [lq, rq]
theorem proj_k (b : Fin 4) (i : Fin 2048) (e : Fin 1024) :
    val_main_v1 (F := Ideal) x wk (ix3 b i e) = projRow (xrow x b i) (mat wk) e := by
  rw [val_main_v1_apply]; unfold projRow
  exact Finset.sum_congr rfl fun k _ => by rw [lk, rk]
theorem proj_v (b : Fin 4) (i : Fin 2048) (e : Fin 1024) :
    val_main_v2 (F := Ideal) x wv (ix3 b i e) = projRow (xrow x b i) (mat wv) e := by
  rw [val_main_v2_apply]; unfold projRow
  exact Finset.sum_congr rfl fun k _ => by rw [lv, rv]

/-- The scores of row i of batch b. -/
abbrev scores (b : Fin 4) (i : Fin 2048) : Fin 2048 → EReal :=
  score (projRow (xrow x b i) (mat wq)) (fun j => projRow (xrow x b j) (mat wk))

theorem score_eq (b : Fin 4) (i j : Fin 2048) :
    val_main_v6 (F := Ideal) x wq wk (ix3 b i j) = scores x wq wk b i j := by
  rw [val_main_v6_apply, val_main_v3_apply, val_main_v5_apply, val_main_v4_apply, val_main_cst_apply]
  simp only [Ideal.hostDivf_def, Ideal.hostUnary_sqrt_def, Ideal.ofBits_def]
  rw [div_sqrt_eq_mul_scale]
  show _ = (∑ e : Fin 1024, projRow (xrow x b i) (mat wq) e * projRow (xrow x b j) (mat wk) e) * scale
  refine congrArg (· * scale) (Finset.sum_congr rfl fun e _ => ?_)
  rw [ls, rs, proj_q, proj_k]

/-- The last axis of a [4, 2048, 2048] array reduces to [4, 2048]. -/
theorem reducesRow : S4x2048x2048.Reduces [2] S4x2048 := by decide

/-- Row (b, i) with the reduced coordinate j put back is (b, i, j). -/
theorem lift_row (b : Fin 4) (i j : Fin 2048) : reducesRow.lift (ix2 b i) j = ix3 b i j :=
  funext fun a => Fin.ext (by match a with | ⟨0, _⟩ => rfl | ⟨1, _⟩ => rfl | ⟨2, _⟩ => rfl)

theorem rowmax_eq (b : Fin 4) (i : Fin 2048) :
    val_main_v9 (F := Ideal) x wq wk (ix2 b i) = rowMax (scores x wq wk b i) := by
  rw [val_main_v9_apply, val_main_v8_apply, val_main_cst_1_apply]
  unfold val_main_v7
  rw [Host.reduce_eq_fold_single FloatOps.maximumf _ _ reducesTo_S4x2048x2048_S4x2048_d2 reducesRow h_S_ (ix2 b i),
    val_main_cst_0_apply]
  have e : (val_main_v6 (F := Ideal) x wq wk ∘ reducesRow.lift (ix2 b i)) = scores x wq wk b i :=
    funext fun j => (congrArg (val_main_v6 (F := Ideal) x wq wk) (lift_row b i j)).trans (score_eq x wq wk b i j)
  rw [e]
  exact max_negInf_rowMax _

theorem exp_eq (b : Fin 4) (i j : Fin 2048) :
    val_main_v13 (F := Ideal) x wq wk (ix3 b i j) = expRow (scores x wq wk b i) j := by
  rw [val_main_v13_apply, val_main_v12_apply, val_main_v11_apply, val_main_v10_apply, imax, rowmax_eq, score_eq]
  simp only [Ideal.hostUnary_exp_def, Ideal.subf_def]
  rfl

theorem den_eq (b : Fin 4) (i : Fin 2048) :
    val_main_v14 (F := Ideal) x wq wk (ix2 b i) = ∑ j : Fin 2048, expRow (scores x wq wk b i) j := by
  rw [val_main_v14_apply, val_main_cst_2_apply]
  simp only [Ideal.ofBits_def, Ideal.ofBits_zero_f32, zero_add]
  exact Finset.sum_congr rfl fun j _ => by rw [isum, exp_eq]

theorem softmax_eq (b : Fin 4) (i j : Fin 2048) :
    val_main_v17 (F := Ideal) x wq wk (ix3 b i j) = softmax (scores x wq wk b i) j := by
  rw [val_main_v17_apply, val_main_v16_apply, val_main_v15_apply, iden, den_eq, exp_eq]
  simp only [Ideal.hostDivf_def]
  rfl

/-- The reference's result stage is attention of the arguments. -/
theorem result_eq : val_main_v18 (F := Ideal) x wq wk wv = attention x wq wk wv := by
  funext idx
  obtain ⟨b, i, d, rfl⟩ : ∃ (b : Fin 4) (i : Fin 2048) (d : Fin 1024), idx = ix3 b i d := ⟨idx 0, idx 1, idx 2, eq_ix3 idx⟩
  rw [val_main_v18_apply]
  unfold attention attend
  exact Finset.sum_congr rfl fun j _ => by rw [lo, ro, softmax_eq, proj_v]

end Cert.ReferenceIdeal.RefValue

end
-- ==== Proof.KernelPieces.lean ====
/-
  What one grid point's body leaves behind, as values.

  At a point whose second coordinate is 0 (the first point of a batch) the body first stores the batch's keys and
  values — the block projected by wk and by wv — into the two scratch buffers, whole, and reads them back; at every
  other point it stores nothing there and reads what the point before left. In both cases it then loads its 128-row
  query tile out of the block (rows 128·qi … 128·qi + 127), computes the tile's attention against the keys and values
  it has just read, and stores that, whole, into the output tile. Every load but the tile's reads a whole buffer.
  So each buffer ends at ONE payload of the inputs, stated here for any float instance.
-/
import proofs.«133282_j2645699854594_2_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The 128-row query tile of a block: the block read through the rectangle at rows 128·qi. -/
def tile (i : grid0.Coords) (xb : Vec F S1x2048x1024 .f32) : Vec F S1x128x1024 .f32 :=
  View.ld xb (Rect.unit (s := S1x2048x1024) (k0_off1 i) S1x128x1024.size (k0_off1_inb i))

/-- First point of a batch: the first scratch buffer ends at the block projected by the second weight matrix. -/
theorem keys_A (c : Dev nD) (i : grid0.Coords) (a2 : Memref sig .tc .vmem S1x2048x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x128x1024 .f32) (h6 : a6.IsWhole) (a7 : Memref sig .tc .vmem S2048x1024 .bf16) (h7 : a7.IsWhole) (a8 : Memref sig .tc .vmem S2048x1024 .bf16) (h8 : a8.IsWhole) (hc : cond0_0 i)
    (x0 : Vec F S1x2048x1024 .f32) (x1 x2 x3 : Vec F S1024x1024 .bf16) :
    sout0_A_0 c i a2 h2 a3 h3 a4 h4 a5 h5 a6 h6 a7 h7 a8 h8 hc x0 x1 x2 x3 = k0_pay2 x0 x2 := by
  unfold sout0_A_0
  rw [View.read_writes_eq_canon _ _ _ (scover0_A_0 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h2.read_unread, h4.read_unread, View.ld_unit_zero (S := S1x2048x1024) hz3, View.ld_unit_zero (S := S1024x1024) hz2]

/-- First point of a batch: the second scratch buffer ends at the block projected by the third weight matrix. -/
theorem values_A (c : Dev nD) (i : grid0.Coords) (a2 : Memref sig .tc .vmem S1x2048x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x128x1024 .f32) (h6 : a6.IsWhole) (a7 : Memref sig .tc .vmem S2048x1024 .bf16) (h7 : a7.IsWhole) (a8 : Memref sig .tc .vmem S2048x1024 .bf16) (h8 : a8.IsWhole) (hc : cond0_0 i)
    (x0 : Vec F S1x2048x1024 .f32) (x1 x2 x3 : Vec F S1024x1024 .bf16) :
    sout0_A_1 c i a2 h2 a3 h3 a4 h4 a5 h5 a6 h6 a7 h7 a8 h8 hc x0 x1 x2 x3 = k0_pay3 x0 x3 := by
  unfold sout0_A_1
  rw [View.read_writes_eq_canon _ _ _ (scover0_A_1 c i a2 h2 a3 h3 a4 h4 a5 h5 a6 h6 a7 h7 a8 h8 hc x0 x1 x2 x3)]
  unfold kernelRun0_A
  dsimp only
  sl_unfold_words
  rw [View.canon_unit_zero hz2]
  simp only [View.readAt_eq_ld, h2.read_unread, h5.read_unread, View.ld_unit_zero (S := S1x2048x1024) hz3, View.ld_unit_zero (S := S1024x1024) hz2]

/-- First point of a batch: the output tile ends at the tile's attention against the keys and values just stored. -/
theorem tile_A (c : Dev nD) (i : grid0.Coords) (a2 : Memref sig .tc .vmem S1x2048x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x128x1024 .f32) (h6 : a6.IsWhole) (a7 : Memref sig .tc .vmem S2048x1024 .bf16) (h7 : a7.IsWhole) (a8 : Memref sig .tc .vmem S2048x1024 .bf16) (h8 : a8.IsWhole) (hc : cond0_0 i)
    (x0 : Vec F S1x2048x1024 .f32) (x1 x2 x3 : Vec F S1024x1024 .bf16) :
    out0_A_4 c i a2 h2 a3 h3 a4 h4 a5 h5 a6 h6 a7 h7 a8 h8 hc x0 x1 x2 x3 = k0_pay4 (tile i x0) x1 (k0_pay2 x0 x2) (k0_pay3 x0 x3) := by
  unfold out0_A_4
  rw [View.read_writes_eq_canon _ _ _ (cover0_A_4 c i a2 h2 a3 h3 a4 h4 a5 h5 a6 h6 a7 h7 a8 h8 hc x0 x1 x2 x3)]
  unfold kernelRun0_A
  dsimp only
  sl_unfold_words
  rw [View.canon_unit_zero hz3, View.readCov_unit_zero (S := S2048x1024) a7.view hz2, View.readCov_unit_zero (S := S2048x1024) a8.view hz2]
  simp only [View.readAt_eq_ld, h2.read_unread, h3.read_unread, h4.read_unread, h5.read_unread,
    View.ld_unit_zero (S := S1x2048x1024) hz3, View.ld_unit_zero (S := S1024x1024) hz2]
  rfl

/-- Any other point: the output tile ends at the tile's attention against the keys and values the point before left. -/
theorem tile_B (c : Dev nD) (i : grid0.Coords) (a2 : Memref sig .tc .vmem S1x2048x1024 .f32) (h2 : a2.IsWhole) (a3 : Memref sig .tc .vmem S1024x1024 .bf16) (h3 : a3.IsWhole) (a4 : Memref sig .tc .vmem S1024x1024 .bf16) (h4 : a4.IsWhole) (a5 : Memref sig .tc .vmem S1024x1024 .bf16) (h5 : a5.IsWhole) (a6 : Memref sig .tc .vmem S1x128x1024 .f32) (h6 : a6.IsWhole) (a7 : Memref sig .tc .vmem S2048x1024 .bf16) (h7 : a7.IsWhole) (a8 : Memref sig .tc .vmem S2048x1024 .bf16) (h8 : a8.IsWhole) (hc : ¬cond0_0 i)
    (x0 : Vec F S1x2048x1024 .f32) (x1 x2 x3 : Vec F S1024x1024 .bf16) (xs0 xs1 : Vec F S2048x1024 .bf16) :
    out0_B_4 c i a2 h2 a3 h3 a4 h4 a5 h5 a6 h6 a7 h7 a8 h8 hc x0 x1 x2 x3 xs0 xs1 = k0_pay4 (tile i x0) x1 xs0 xs1 := by
  unfold out0_B_4
  rw [View.read_writes_eq_canon _ _ _ (cover0_B_4 c i a2 h2 a3 h3 a4 h4 a5 h5 a6 h6 a7 h7 a8 h8 hc x0 x1 x2 x3 xs0 xs1)]
  unfold kernelRun0_B
  dsimp only
  rw [View.canon_unit_zero hz3]
  simp only [View.readAt_eq_ld, h2.read_unread, h3.read_unread, h7.read_unread, h8.read_unread,
    View.ld_unit_zero (S := S1024x1024) hz2, View.ld_unit_zero (S := S2048x1024) hz2]
  rfl

end Cert.KernelIdeal.Pieces

end
-- ==== Proof.KernelBlocks.lean ====
/-
  What the body's inputs hold at a grid point, read at coordinates over the extended reals.

  Grid point t (of 64) is batch t / 16 and query tile t % 16. At t:
    the first window's block is batch t / 16 of x, whole: entry (0, j, k) of the block is x (t / 16, j, k);
    the other three windows' blocks are the whole weight arrays as the region finds them, which are the f32 weights
      converted to bf16 before the region — the identity on the extended reals;
    the query tile, the block's rows 128·(t % 16) … + 127, has at (0, r, k) the block's entry (0, 128·(t % 16) + r, k).
-/
import proofs.«133282_j2645699854594_2_alg».proof.Proof.KernelPieces
import Idealize.ShloMosaic.Lib.StableHlo.Run
import Idealize.ShloMosaic.Lib.ValueIdx

set_option maxRecDepth 16384

noncomputable section

namespace Cert.KernelIdeal.Blocks

open Cert.KernelIdeal Cert.KernelIdeal.Gen Cert.KernelIdeal.Pieces
open Idealize.ShloMosaic Idealize.ShloMosaic.TcCoe Idealize.ShloMosaic.ValueIdx Idealize.SL.Sem Idealize.ShloMosaic.StableHlo

variable (m : (ℓ : Loc nD τ sig) → Buf (Elt Ideal) ℓ)

/-- The printed index maps and the second grid coordinate, decided over the 64 points. -/
theorem idx_facts : ∀ t : Fin cfg0.N,
    win0_0.index t (0 : Fin 3) = t.val / 16 ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 16 ∧ win0_4.index t (1 : Fin 3) = t.val % 16 ∧ win0_4.index t (2 : Fin 3) = 0
    ∧ (grid0.coords t 1).val = t.val % 16 :=
  (by decide +kernel : ∀ t : Fin grid0.N, _)

/-! ## The weight arrays as the region finds them -/

theorem V_w1 (c : Dev nD) : (V m c main_v0 : S1024x1024.Idx → EReal) = m ((c : Thread nD τ).loc main_arg1) := by
  have e : (V m c main_v0 : S1024x1024.Idx → EReal) = truncf (F := Ideal) .bf16 (m ((c : Thread nD τ).loc main_arg1)) bitsLt_bf16_f32 := by
    dsimp only [Gen.V, Gen.hostOps0]; after_results
  rw [e]; rfl
theorem V_w2 (c : Dev nD) : (V m c main_v1 : S1024x1024.Idx → EReal) = m ((c : Thread nD τ).loc main_arg2) := by
  have e : (V m c main_v1 : S1024x1024.Idx → EReal) = truncf (F := Ideal) .bf16 (m ((c : Thread nD τ).loc main_arg2)) bitsLt_bf16_f32 := by
    dsimp only [Gen.V, Gen.hostOps0]; after_results
  rw [e]; rfl
theorem V_w3 (c : Dev nD) : (V m c main_v2 : S1024x1024.Idx → EReal) = m ((c : Thread nD τ).loc main_arg3) := by
  have e : (V m c main_v2 : S1024x1024.Idx → EReal) = truncf (F := Ideal) .bf16 (m ((c : Thread nD τ).loc main_arg3)) bitsLt_bf16_f32 := by
    dsimp only [Gen.V, Gen.hostOps0]; after_results
  rw [e]; rfl

/-! ## The blocks at coordinates -/

/-- The first window's block at point t is batch t / 16 of x. -/
theorem blk_x (c : Dev nD) (t : Fin cfg0.N) (b : Fin 4) (hb : b.val = t.val / 16) (j : Fin 2048) (k : Fin 1024) :
    (iblk m c 0 t : Vec Ideal S1x2048x1024 .f32) (ix3 (0 : Fin 1) j k) = m ((c : Thread nD τ).loc main_arg0) (ix3 b j k) := by
  obtain ⟨e0, e1, e2, -⟩ := idx_facts t
  unfold iblk
  rw [View.read_apply]
  show V m c main_arg0 (((cfg0.win 0).blk t).view.emb (ix3 (0 : Fin 1) j k)) = _
  rw [V_main_arg0]
  refine congrArg _ (funext fun a => Fin.ext ?_)
  match a with
  | ⟨0, _⟩ => show win0_0.index t (0 : Fin 3) * 1 + 1 * 0 = b.val; omega
  | ⟨1, _⟩ => show win0_0.index t (1 : Fin 3) * 2048 + 1 * j.val = j.val; omega
  | ⟨2, _⟩ => show win0_0.index t (2 : Fin 3) * 1024 + 1 * k.val = k.val; omega

theorem blk_w1 (c : Dev nD) (t : Fin cfg0.N) (k e : Fin 1024) :
    (iblk m c 1 t : Vec Ideal S1024x1024 .bf16) (ix2 k e) = m ((c : Thread nD τ).loc main_arg1) (ix2 k e) := by
  obtain ⟨-, -, -, e0, e1, -⟩ := idx_facts t
  unfold iblk
  rw [View.read_apply]
  show V m c main_v0 (((cfg0.win 1).blk t).view.emb (ix2 k e)) = _
  rw [V_w1]
  refine congrArg _ (funext fun a => Fin.ext ?_)
  match a with
  | ⟨0, _⟩ => show win0_1.index t (0 : Fin 2) * 1024 + 1 * k.val = k.val; omega
  | ⟨1, _⟩ => show win0_1.index t (1 : Fin 2) * 1024 + 1 * e.val = e.val; omega

theorem blk_w2 (c : Dev nD) (t : Fin cfg0.N) (k e : Fin 1024) :
    (iblk m c 2 t : Vec Ideal S1024x1024 .bf16) (ix2 k e) = m ((c : Thread nD τ).loc main_arg2) (ix2 k e) := by
  obtain ⟨-, -, -, -, -, e0, e1, -⟩ := idx_facts t
  unfold iblk
  rw [View.read_apply]
  show V m c main_v1 (((cfg0.win 2).blk t).view.emb (ix2 k e)) = _
  rw [V_w2]
  refine congrArg _ (funext fun a => Fin.ext ?_)
  match a with
  | ⟨0, _⟩ => show win0_2.index t (0 : Fin 2) * 1024 + 1 * k.val = k.val; omega
  | ⟨1, _⟩ => show win0_2.index t (1 : Fin 2) * 1024 + 1 * e.val = e.val; omega

theorem blk_w3 (c : Dev nD) (t : Fin cfg0.N) (k e : Fin 1024) :
    (iblk m c 3 t : Vec Ideal S1024x1024 .bf16) (ix2 k e) = m ((c : Thread nD τ).loc main_arg3) (ix2 k e) := by
  obtain ⟨-, -, -, -, -, -, -, e0, e1, -⟩ := idx_facts t
  unfold iblk
  rw [View.read_apply]
  show V m c main_v2 (((cfg0.win 3).blk t).view.emb (ix2 k e)) = _
  rw [V_w3]
  refine congrArg _ (funext fun a => Fin.ext ?_)
  match a with
  | ⟨0, _⟩ => show win0_3.index t (0 : Fin 2) * 1024 + 1 * k.val = k.val; omega
  | ⟨1, _⟩ => show win0_3.index t (1 : Fin 2) * 1024 + 1 * e.val = e.val; omega

/-- The query tile's row r is the block's row 128·qi + r. -/
theorem tile_apply (i : grid0.Coords) (xb : Vec Ideal S1x2048x1024 .f32) (r : Fin 128) (k : Fin 1024) (row : Fin 2048)
    (hrow : row.val = 128 * (i 1).val + r.val) :
    tile i xb (ix3 (0 : Fin 1) r k) = xb (ix3 (0 : Fin 1) row k) := by
  unfold tile
  show xb _ = xb _
  refine congrArg xb (funext fun a => Fin.ext ?_)
  have ho := k0_off1_eq i
  match a with
  | ⟨0, _⟩ => show k0_off1 i 0 + 1 * 0 = 0; rw [ho]; rfl
  | ⟨1, _⟩ => show k0_off1 i 1 + 1 * r.val = row.val; rw [ho, hrow]; show 128 * (i 1).val + 1 * r.val = _; omega
  | ⟨2, _⟩ => show k0_off1 i 2 + 1 * k.val = k.val; rw [ho]; show 0 + 1 * k.val = k.val; omega

end Cert.KernelIdeal.Blocks

end
-- ==== Proof.LibReadAtIndex.lean ====
/-
  Three readings at an index that a kernel with a `keepdims` row reduction and matrix products needs.

  * A vector of length a cast to a column [a, 1] has, at (i, 0), the vector's entry i.
  * A column [a, 1] broadcast to [a, b] has, at (p, c), the column's entry p — every row is constant.
  * A matrix product with ONE contracted axis of extent n, accumulated into zero, has at an output index j the sum over
    k < n of the left operand at L k times the right operand at R k, where L k and R k are the operand indices the
    product's dimension numbers assign to j and k. Over the extended reals the zero accumulator adds nothing and the
    sum has no order.
-/
import Idealize.ShloMosaic.Lib.Pipeline.Value
import Idealize.ShloMosaic.Lib.ValueIdx
import Idealize.ShloMosaic.Lib.ValueLayout
import Idealize.ShloMosaic.PureOps.Ideal.Laws

noncomputable section

namespace Cert.ReadAtIndex

open Idealize.ShloMosaic Idealize.ShloMosaic.ValueIdx

variable {α : Type}

/-- An `[a]` array cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A matrix product with one contracted axis of extent `n`, into the zero accumulator, read at `j`: the sum over the
    axis's coordinates of the operands' products at the indices the dimension numbers name. -/
theorem matmul_zero_sum {sl sr so : Shape} {φ₁ φ₂ : FTy} (D : DotDims sl sr so) (n : ℕ) (hr : D.contr.rank = 1)
    (hs : D.contr.size ⟨0, by omega⟩ = n) (prec : Option ContractPrecision)
    (lhs : FVec Ideal sl φ₁) (rhs : FVec Ideal sr φ₂) (j : so.Idx) (L : Fin n → sl.Idx) (R : Fin n → sr.Idx)
    (hl : ∀ k, D.lhsIdx j ((contrEquiv1 D n hr hs).symm k) = L k)
    (hr' : ∀ k, D.rhsIdx j ((contrEquiv1 D n hr hs).symm k) = R k) :
    matmul D prec lhs rhs (constant so .f32 0x00000000#32) j = ∑ k : Fin n, lhs (L k) * rhs (R k) := by
  simp only [matmul]
  rw [Ideal.matmul_constant_zero_apply, ← Equiv.sum_comp (contrEquiv1 D n hr hs).symm]
  exact Finset.sum_congr rfl fun k _ => by rw [hl, hr']

end Cert.ReadAtIndex

end
-- ==== Proof.KernelStages.lean ====
/-
  The kernel body's arithmetic, read at an index over the extended reals.

  The body computes, from a [1, 2048, 1024] block xb of x (one batch), a [1, 128, 1024] tile xq of it (128 query rows)
  and the three weight matrices:
    keys and values (once per batch)   K = xb · wk,  V = xb · wv       — each row a projection row of a row of xb;
    queries                            Q = xq · wq                      — each row a projection row of a row of xq;
    scores                             S = (Q · Kᵀ) · 2⁻⁵               — entry (r, j) the scaled score of row r against key j;
    row maxima from −∞, kept as a column and broadcast back along the row;
    exponentials                       E = exp (S − max);
    row sums of E, kept as a column and broadcast back along the row;
    the quotient                       P = E / sum;
    the result tile                    O = P · V.
  Changes of float format are the identity here, every matrix product accumulates into zero, and the reshapes only add
  or drop a leading unit axis. Each stage is named below and the body's payloads are these stages composed; each stage
  at an index is the corresponding row function of `Cert.Attention`.
-/
import proofs.«133282_j2645699854594_2_alg».proof.Proof.Gen.KernelIdeal.Skeleton
import proofs.«133282_j2645699854594_2_alg».proof.Proof.AttentionSpec
import proofs.«133282_j2645699854594_2_alg».proof.Proof.LibReadAtIndex

noncomputable section

namespace Cert.KernelIdeal.Body

open Cert.KernelIdeal Cert.KernelIdeal.Gen Cert.Attention Cert.ReadAtIndex
open Idealize.ShloMosaic Idealize.ShloMosaic.ValueIdx

/-! ## The products' operand indices

For each of the four matrix products: which coordinate of the output index, or the contracted coordinate, each axis of
each operand's index is; then the operand indices at coordinates. -/

theorem kv_l0 (i : S2048x1024.Idx) (q : dot_S2048x1024_S1024x1024_S2048x1024_1_0_0_1_n_n.contr.Idx) :
    (dot_S2048x1024_S1024x1024_S2048x1024_1_0_0_1_n_n.lhsIdx i q 0).val = (i 0).val := by
  unfold DotDims.lhsIdx
  rw [dif_neg (show ¬(0 : Fin S2048x1024.rank) ∈ dot_S2048x1024_S1024x1024_S2048x1024_1_0_0_1_n_n.lhsBatch by decide), dif_pos (show (0 : Fin S2048x1024.rank) ∈ dot_S2048x1024_S1024x1024_S2048x1024_1_0_0_1_n_n.lhsNonContracting by decide)]
  rfl
theorem kv_l1 (i : S2048x1024.Idx) (q : dot_S2048x1024_S1024x1024_S2048x1024_1_0_0_1_n_n.contr.Idx) :
    (dot_S2048x1024_S1024x1024_S2048x1024_1_0_0_1_n_n.lhsIdx i q 1).val = (q ⟨0, by decide⟩).val :=
  dot_S2048x1024_S1024x1024_S2048x1024_1_0_0_1_n_n.lhsIdx_val_of_single rfl i q
theorem kv_r0 (i : S2048x1024.Idx) (q : dot_S2048x1024_S1024x1024_S2048x1024_1_0_0_1_n_n.contr.Idx) :
    (dot_S2048x1024_S1024x1024_S2048x1024_1_0_0_1_n_n.rhsIdx i q 0).val = (q ⟨0, by decide⟩).val :=
  dot_S2048x1024_S1024x1024_S2048x1024_1_0_0_1_n_n.rhsIdx_val_of_single rfl i q
theorem kv_r1 (i : S2048x1024.Idx) (q : dot_S2048x1024_S1024x1024_S2048x1024_1_0_0_1_n_n.contr.Idx) :
    (dot_S2048x1024_S1024x1024_S2048x1024_1_0_0_1_n_n.rhsIdx i q 1).val = (i 1).val := by
  unfold DotDims.rhsIdx
  rw [dif_neg (show ¬(1 : Fin S1024x1024.rank) ∈ dot_S2048x1024_S1024x1024_S2048x1024_1_0_0_1_n_n.rhsBatch by decide), dif_pos (show (1 : Fin S1024x1024.rank) ∈ dot_S2048x1024_S1024x1024_S2048x1024_1_0_0_1_n_n.rhsNonContracting by decide)]
  rfl
theorem qp_l0 (i : S128x1024.Idx) (q : dot_S128x1024_S1024x1024_S128x1024_1_0_0_1_n_n.contr.Idx) :
    (dot_S128x1024_S1024x1024_S128x1024_1_0_0_1_n_n.lhsIdx i q 0).val = (i 0).val := by
  unfold DotDims.lhsIdx
  rw [dif_neg (show ¬(0 : Fin S128x1024.rank) ∈ dot_S128x1024_S1024x1024_S128x1024_1_0_0_1_n_n.lhsBatch by decide), dif_pos (show (0 : Fin S128x1024.rank) ∈ dot_S128x1024_S1024x1024_S128x1024_1_0_0_1_n_n.lhsNonContracting by decide)]
  rfl
theorem qp_l1 (i : S128x1024.Idx) (q : dot_S128x1024_S1024x1024_S128x1024_1_0_0_1_n_n.contr.Idx) :
    (dot_S128x1024_S1024x1024_S128x1024_1_0_0_1_n_n.lhsIdx i q 1).val = (q ⟨0, by decide⟩).val :=
  dot_S128x1024_S1024x1024_S128x1024_1_0_0_1_n_n.lhsIdx_val_of_single rfl i q
theorem qp_r0 (i : S128x1024.Idx) (q : dot_S128x1024_S1024x1024_S128x1024_1_0_0_1_n_n.contr.Idx) :
    (dot_S128x1024_S1024x1024_S128x1024_1_0_0_1_n_n.rhsIdx i q 0).val = (q ⟨0, by decide⟩).val :=
  dot_S128x1024_S1024x1024_S128x1024_1_0_0_1_n_n.rhsIdx_val_of_single rfl i q
theorem qp_r1 (i : S128x1024.Idx) (q : dot_S128x1024_S1024x1024_S128x1024_1_0_0_1_n_n.contr.Idx) :
    (dot_S128x1024_S1024x1024_S128x1024_1_0_0_1_n_n.rhsIdx i q 1).val = (i 1).val := by
  unfold DotDims.rhsIdx
  rw [dif_neg (show ¬(1 : Fin S1024x1024.rank) ∈ dot_S128x1024_S1024x1024_S128x1024_1_0_0_1_n_n.rhsBatch by decide), dif_pos (show (1 : Fin S1024x1024.rank) ∈ dot_S128x1024_S1024x1024_S128x1024_1_0_0_1_n_n.rhsNonContracting by decide)]
  rfl
theorem sc_l0 (i : S128x2048.Idx) (q : dot_S128x1024_S2048x1024_S128x2048_1_1_0_0_n_n.contr.Idx) :
    (dot_S128x1024_S2048x1024_S128x2048_1_1_0_0_n_n.lhsIdx i q 0).val = (i 0).val := by
  unfold DotDims.lhsIdx
  rw [dif_neg (show ¬(0 : Fin S128x1024.rank) ∈ dot_S128x1024_S2048x1024_S128x2048_1_1_0_0_n_n.lhsBatch by decide), dif_pos (show (0 : Fin S128x1024.rank) ∈ dot_S128x1024_S2048x1024_S128x2048_1_1_0_0_n_n.lhsNonContracting by decide)]
  rfl
theorem sc_l1 (i : S128x2048.Idx) (q : dot_S128x1024_S2048x1024_S128x2048_1_1_0_0_n_n.contr.Idx) :
    (dot_S128x1024_S2048x1024_S128x2048_1_1_0_0_n_n.lhsIdx i q 1).val = (q ⟨0, by decide⟩).val :=
  dot_S128x1024_S2048x1024_S128x2048_1_1_0_0_n_n.lhsIdx_val_of_single rfl i q
theorem sc_r0 (i : S128x2048.Idx) (q : dot_S128x1024_S2048x1024_S128x2048_1_1_0_0_n_n.contr.Idx) :
    (dot_S128x1024_S2048x1024_S128x2048_1_1_0_0_n_n.rhsIdx i q 0).val = (i 1).val := by
  unfold DotDims.rhsIdx
  rw [dif_neg (show ¬(0 : Fin S2048x1024.rank) ∈ dot_S128x1024_S2048x1024_S128x2048_1_1_0_0_n_n.rhsBatch by decide), dif_pos (show (0 : Fin S2048x1024.rank) ∈ dot_S128x1024_S2048x1024_S128x2048_1_1_0_0_n_n.rhsNonContracting by decide)]
  rfl
theorem sc_r1 (i : S128x2048.Idx) (q : dot_S128x1024_S2048x1024_S128x2048_1_1_0_0_n_n.contr.Idx) :
    (dot_S128x1024_S2048x1024_S128x2048_1_1_0_0_n_n.rhsIdx i q 1).val = (q ⟨0, by decide⟩).val :=
  dot_S128x1024_S2048x1024_S128x2048_1_1_0_0_n_n.rhsIdx_val_of_single rfl i q
theorem ov_l0 (i : S128x1024.Idx) (q : dot_S128x2048_S2048x1024_S128x1024_1_0_0_1_n_n.contr.Idx) :
    (dot_S128x2048_S2048x1024_S128x1024_1_0_0_1_n_n.lhsIdx i q 0).val = (i 0).val := by
  unfold DotDims.lhsIdx
  rw [dif_neg (show ¬(0 : Fin S128x2048.rank) ∈ dot_S128x2048_S2048x1024_S128x1024_1_0_0_1_n_n.lhsBatch by decide), dif_pos (show (0 : Fin S128x2048.rank) ∈ dot_S128x2048_S2048x1024_S128x1024_1_0_0_1_n_n.lhsNonContracting by decide)]
  rfl
theorem ov_l1 (i : S128x1024.Idx) (q : dot_S128x2048_S2048x1024_S128x1024_1_0_0_1_n_n.contr.Idx) :
    (dot_S128x2048_S2048x1024_S128x1024_1_0_0_1_n_n.lhsIdx i q 1).val = (q ⟨0, by decide⟩).val :=
  dot_S128x2048_S2048x1024_S128x1024_1_0_0_1_n_n.lhsIdx_val_of_single rfl i q
theorem ov_r0 (i : S128x1024.Idx) (q : dot_S128x2048_S2048x1024_S128x1024_1_0_0_1_n_n.contr.Idx) :
    (dot_S128x2048_S2048x1024_S128x1024_1_0_0_1_n_n.rhsIdx i q 0).val = (q ⟨0, by decide⟩).val :=
  dot_S128x2048_S2048x1024_S128x1024_1_0_0_1_n_n.rhsIdx_val_of_single rfl i q
theorem ov_r1 (i : S128x1024.Idx) (q : dot_S128x2048_S2048x1024_S128x1024_1_0_0_1_n_n.contr.Idx) :
    (dot_S128x2048_S2048x1024_S128x1024_1_0_0_1_n_n.rhsIdx i q 1).val = (i 1).val := by
  unfold DotDims.rhsIdx
  rw [dif_neg (show ¬(1 : Fin S2048x1024.rank) ∈ dot_S128x2048_S2048x1024_S128x1024_1_0_0_1_n_n.rhsBatch by decide), dif_pos (show (1 : Fin S2048x1024.rank) ∈ dot_S128x2048_S2048x1024_S128x1024_1_0_0_1_n_n.rhsNonContracting by decide)]
  rfl

/-- x[2048,1024] · w[1024,1024] at (j, e): the left operand at (j, k), -/
theorem projL2048 (j : Fin 2048) (e k : Fin 1024) :
    dot_S2048x1024_S1024x1024_S2048x1024_1_0_0_1_n_n.lhsIdx (ix2 j e) ((contrEquiv1 dot_S2048x1024_S1024x1024_S2048x1024_1_0_0_1_n_n 1024 rfl rfl).symm k) = ix2 j k :=
  funext fun a => Fin.ext (by
    have hk := contrEquiv1_symm_val dot_S2048x1024_S1024x1024_S2048x1024_1_0_0_1_n_n 1024 rfl rfl k
    match a with
    | ⟨0, _⟩ => exact kv_l0 _ _
    | ⟨1, _⟩ => exact (kv_l1 _ _).trans hk)
/-- and the right at (k, e). -/
theorem projR2048 (j : Fin 2048) (e k : Fin 1024) :
    dot_S2048x1024_S1024x1024_S2048x1024_1_0_0_1_n_n.rhsIdx (ix2 j e) ((contrEquiv1 dot_S2048x1024_S1024x1024_S2048x1024_1_0_0_1_n_n 1024 rfl rfl).symm k) = ix2 k e :=
  funext fun a => Fin.ext (by
    have hk := contrEquiv1_symm_val dot_S2048x1024_S1024x1024_S2048x1024_1_0_0_1_n_n 1024 rfl rfl k
    match a with
    | ⟨0, _⟩ => exact (kv_r0 _ _).trans hk
    | ⟨1, _⟩ => exact kv_r1 _ _)

theorem projL128 (r : Fin 128) (e k : Fin 1024) :
    dot_S128x1024_S1024x1024_S128x1024_1_0_0_1_n_n.lhsIdx (ix2 r e) ((contrEquiv1 dot_S128x1024_S1024x1024_S128x1024_1_0_0_1_n_n 1024 rfl rfl).symm k) = ix2 r k :=
  funext fun a => Fin.ext (by
    have hk := contrEquiv1_symm_val dot_S128x1024_S1024x1024_S128x1024_1_0_0_1_n_n 1024 rfl rfl k
    match a with
    | ⟨0, _⟩ => exact qp_l0 _ _
    | ⟨1, _⟩ => exact (qp_l1 _ _).trans hk)
theorem projR128 (r : Fin 128) (e k : Fin 1024) :
    dot_S128x1024_S1024x1024_S128x1024_1_0_0_1_n_n.rhsIdx (ix2 r e) ((contrEquiv1 dot_S128x1024_S1024x1024_S128x1024_1_0_0_1_n_n 1024 rfl rfl).symm k) = ix2 k e :=
  funext fun a => Fin.ext (by
    have hk := contrEquiv1_symm_val dot_S128x1024_S1024x1024_S128x1024_1_0_0_1_n_n 1024 rfl rfl k
    match a with
    | ⟨0, _⟩ => exact (qp_r0 _ _).trans hk
    | ⟨1, _⟩ => exact qp_r1 _ _)

/-- Q[128,1024] · K[2048,1024]ᵀ at (r, j): the left operand at (r, e), -/
theorem scoreL (r : Fin 128) (j : Fin 2048) (e : Fin 1024) :
    dot_S128x1024_S2048x1024_S128x2048_1_1_0_0_n_n.lhsIdx (ix2 r j) ((contrEquiv1 dot_S128x1024_S2048x1024_S128x2048_1_1_0_0_n_n 1024 rfl rfl).symm e) = ix2 r e :=
  funext fun a => Fin.ext (by
    have hk := contrEquiv1_symm_val dot_S128x1024_S2048x1024_S128x2048_1_1_0_0_n_n 1024 rfl rfl e
    match a with
    | ⟨0, _⟩ => exact sc_l0 _ _
    | ⟨1, _⟩ => exact (sc_l1 _ _).trans hk)
/-- and the right at (j, e). -/
theorem scoreR (r : Fin 128) (j : Fin 2048) (e : Fin 1024) :
    dot_S128x1024_S2048x1024_S128x2048_1_1_0_0_n_n.rhsIdx (ix2 r j) ((contrEquiv1 dot_S128x1024_S2048x1024_S128x2048_1_1_0_0_n_n 1024 rfl rfl).symm e) = ix2 j e :=
  funext fun a => Fin.ext (by
    have hk := contrEquiv1_symm_val dot_S128x1024_S2048x1024_S128x2048_1_1_0_0_n_n 1024 rfl rfl e
    match a with
    | ⟨0, _⟩ => exact sc_r0 _ _
    | ⟨1, _⟩ => exact (sc_r1 _ _).trans hk)

/-- P[128,2048] · V[2048,1024] at (r, d): the left operand at (r, j), -/
theorem outL (r : Fin 128) (d : Fin 1024) (j : Fin 2048) :
    dot_S128x2048_S2048x1024_S128x1024_1_0_0_1_n_n.lhsIdx (ix2 r d) ((contrEquiv1 dot_S128x2048_S2048x1024_S128x1024_1_0_0_1_n_n 2048 rfl rfl).symm j) = ix2 r j :=
  funext fun a => Fin.ext (by
    have hk := contrEquiv1_symm_val dot_S128x2048_S2048x1024_S128x1024_1_0_0_1_n_n 2048 rfl rfl j
    match a with
    | ⟨0, _⟩ => exact ov_l0 _ _
    | ⟨1, _⟩ => exact (ov_l1 _ _).trans hk)
/-- and the right at (j, d). -/
theorem outR (r : Fin 128) (d : Fin 1024) (j : Fin 2048) :
    dot_S128x2048_S2048x1024_S128x1024_1_0_0_1_n_n.rhsIdx (ix2 r d) ((contrEquiv1 dot_S128x2048_S2048x1024_S128x1024_1_0_0_1_n_n 2048 rfl rfl).symm j) = ix2 j d :=
  funext fun a => Fin.ext (by
    have hk := contrEquiv1_symm_val dot_S128x2048_S2048x1024_S128x1024_1_0_0_1_n_n 2048 rfl rfl j
    match a with
    | ⟨0, _⟩ => exact (ov_r0 _ _).trans hk
    | ⟨1, _⟩ => exact ov_r1 _ _)

/-! ## The stages -/

/-- Keys (or values) of a batch: the block's rows projected by a weight matrix. -/
def projAll (xb : Vec Ideal S1x2048x1024 .f32) (w : FVec Ideal S1024x1024 .bf16) : FVec Ideal S2048x1024 .bf16 :=
  shapeCast S2048x1024 (truncf .bf16 (matmul dot_S2048x1024_S1024x1024_S2048x1024_1_0_0_1_n_n none (k0_pay1 (F := Ideal) xb) (shapeCast S1024x1024 w shapeCasts_S1024x1024_S1024x1024)
    (constant (F := Ideal) S2048x1024 .f32 0x00000000#32)) bitsLt_bf16_f32) shapeCasts_S2048x1024_S2048x1024

/-- Queries of a tile: its 128 rows projected by wq. -/
def queries (xq : Vec Ideal S1x128x1024 .f32) (w : FVec Ideal S1024x1024 .bf16) : FVec Ideal S128x1024 .bf16 :=
  truncf .bf16 (matmul dot_S128x1024_S1024x1024_S128x1024_1_0_0_1_n_n none (truncf .bf16 (shapeCast S128x1024 xq shapeCasts_S1x128x1024_S128x1024) bitsLt_bf16_f32)
    (shapeCast S1024x1024 w shapeCasts_S1024x1024_S1024x1024) (constant (F := Ideal) S128x1024 .f32 0x00000000#32)) bitsLt_bf16_f32

/-- Scaled scores of the tile's rows against all keys. -/
def scoresOf (q : FVec Ideal S128x1024 .bf16) (K : FVec Ideal S2048x1024 .bf16) : FVec Ideal S128x2048 .f32 :=
  mulf (matmul dot_S128x1024_S2048x1024_S128x2048_1_1_0_0_n_n none q K (constant (F := Ideal) S128x2048 .f32 0x00000000#32)) (broadcast S128x2048 (Scalar.ofBits (F := Ideal) .f32 0x3D000000#32))

/-- Each row's maximum, broadcast back along the row. -/
def maxOf (s : FVec Ideal S128x2048 .f32) : FVec Ideal S128x2048 .f32 :=
  broadcastTo S128x2048 (shapeCast S128x1 (multiReduction (F := Ideal) .maximumf [1] S128 s 0xFF800000#32 reduces_S128x2048_S128 (.inl rfl) rfl) shapeCasts_S128_S128x1)
    broadcasts_S128x1_S128x2048

/-- The exponentials of the scores less their row's maximum. -/
def expOf (s : FVec Ideal S128x2048 .f32) : FVec Ideal S128x2048 .f32 := exp (subf s (maxOf s))

/-- Each row's sum, broadcast back along the row. -/
def sumOf (e : FVec Ideal S128x2048 .f32) : FVec Ideal S128x2048 .f32 :=
  broadcastTo S128x2048 (shapeCast S128x1 (multiReduction (F := Ideal) .add [1] S128 e 0x00000000#32 reduces_S128x2048_S128 (.inl rfl) rfl) shapeCasts_S128_S128x1)
    broadcasts_S128x1_S128x2048

/-- The normalised rows. -/
def probsOf (e : FVec Ideal S128x2048 .f32) : FVec Ideal S128x2048 .bf16 := truncf .bf16 (divf e (sumOf e)) bitsLt_bf16_f32

/-- The result tile. -/
def tileOf (p : FVec Ideal S128x2048 .bf16) (V : FVec Ideal S2048x1024 .bf16) : FVec Ideal S1x128x1024 .f32 :=
  shapeCast S1x128x1024 (matmul dot_S128x2048_S2048x1024_S128x1024_1_0_0_1_n_n none p V (constant (F := Ideal) S128x1024 .f32 0x00000000#32)) shapeCasts_S128x1024_S1x128x1024

/-- The body's payloads are these stages composed. -/
theorem pay2_eq (xb : Vec Ideal S1x2048x1024 .f32) (w : Vec Ideal S1024x1024 .bf16) : k0_pay2 (F := Ideal) xb w = projAll xb w := rfl
theorem pay3_eq (xb : Vec Ideal S1x2048x1024 .f32) (w : Vec Ideal S1024x1024 .bf16) : k0_pay3 (F := Ideal) xb w = projAll xb w := rfl
theorem pay4_eq (xq : Vec Ideal S1x128x1024 .f32) (w : Vec Ideal S1024x1024 .bf16) (K V : Vec Ideal S2048x1024 .bf16) :
    k0_pay4 (F := Ideal) xq w K V = tileOf (probsOf (expOf (scoresOf (queries xq w) K))) V := rfl

/-! ## Each stage at an index -/

theorem projAll_apply (xb : Vec Ideal S1x2048x1024 .f32) (w : FVec Ideal S1024x1024 .bf16) (j : Fin 2048) (e : Fin 1024) :
    projAll xb w (ix2 j e) = projRow (fun k => xb (ix3 (0 : Fin 1) j k)) (fun k e => w (ix2 k e)) e := by
  unfold projAll
  rw [shapeCast_self]
  refine (matmul_zero_sum dot_S2048x1024_S1024x1024_S2048x1024_1_0_0_1_n_n 1024 rfl rfl none _ _ (ix2 j e) (fun k => ix2 j k) (fun k => ix2 k e)
    (projL2048 j e) (projR2048 j e)).trans ?_
  unfold projRow k0_pay1
  refine Finset.sum_congr rfl fun k _ => ?_
  rw [shapeCast_self]
  exact congrArg (· * w (ix2 k e)) (shapeCast_1ab_ab_apply xb _ j k)

theorem queries_apply (xq : Vec Ideal S1x128x1024 .f32) (w : FVec Ideal S1024x1024 .bf16) (r : Fin 128) (e : Fin 1024) :
    queries xq w (ix2 r e) = projRow (fun k => xq (ix3 (0 : Fin 1) r k)) (fun k e => w (ix2 k e)) e := by
  unfold queries
  refine (matmul_zero_sum dot_S128x1024_S1024x1024_S128x1024_1_0_0_1_n_n 1024 rfl rfl none _ _ (ix2 r e) (fun k => ix2 r k) (fun k => ix2 k e)
    (projL128 r e) (projR128 r e)).trans ?_
  unfold projRow
  refine Finset.sum_congr rfl fun k _ => ?_
  rw [shapeCast_self]
  exact congrArg (· * w (ix2 k e)) (shapeCast_1ab_ab_apply xq _ r k)

theorem scoresOf_apply (q : FVec Ideal S128x1024 .bf16) (K : FVec Ideal S2048x1024 .bf16) (r : Fin 128) (j : Fin 2048) :
    scoresOf q K (ix2 r j) = score (fun e => q (ix2 r e)) (fun j e => K (ix2 j e)) j := by
  unfold scoresOf score
  refine congrArg (· * scale) ?_
  exact matmul_zero_sum dot_S128x1024_S2048x1024_S128x2048_1_1_0_0_n_n 1024 rfl rfl none _ _ (ix2 r j) (fun e => ix2 r e) (fun e => ix2 j e) (scoreL r j) (scoreR r j)

/-- A row index with the reduced coordinate put back. -/
theorem lift_row (r : Fin 128) (j : Fin 2048) : reduces_S128x2048_S128.lift (ix1 r) j = ix2 r j :=
  funext fun a => Fin.ext (by match a with | ⟨0, _⟩ => rfl | ⟨1, _⟩ => rfl)

theorem maxOf_apply (s : FVec Ideal S128x2048 .f32) (r : Fin 128) (j : Fin 2048) :
    maxOf s (ix2 r j) = rowMax (fun j => s (ix2 r j)) := by
  unfold maxOf
  rw [broadcastTo_a1_ab_apply, shapeCast_a_a1_apply]
  refine (Ideal.multiReduction_maximumf_single s 0xFF800000#32 reduces_S128x2048_S128 (.inl rfl) rfl (ix1 r)).trans ?_
  unfold rowMax
  exact congrArg (fun f : Fin 2048 → EReal => Finset.fold max negInf f Finset.univ)
    (funext fun j => congrArg s (lift_row r j))

theorem expOf_apply (s : FVec Ideal S128x2048 .f32) (r : Fin 128) (j : Fin 2048) :
    expOf s (ix2 r j) = expRow (fun j => s (ix2 r j)) j := by
  unfold expOf expRow
  show Ideal.exp (s (ix2 r j) - maxOf s (ix2 r j)) = _
  rw [maxOf_apply]

theorem sumOf_apply (e : FVec Ideal S128x2048 .f32) (r : Fin 128) (j : Fin 2048) :
    sumOf e (ix2 r j) = ∑ j' : Fin 2048, e (ix2 r j') := by
  unfold sumOf
  rw [broadcastTo_a1_ab_apply, shapeCast_a_a1_apply]
  refine (Ideal.multiReduction_add_single e 0x00000000#32 reduces_S128x2048_S128 (.inl rfl) rfl (ix1 r)).trans ?_
  exact Finset.sum_congr rfl fun j _ => congrArg e (lift_row r j)

theorem probsOf_apply (e : FVec Ideal S128x2048 .f32) (r : Fin 128) (j : Fin 2048) :
    probsOf e (ix2 r j) = Ideal.div (e (ix2 r j)) (∑ j' : Fin 2048, e (ix2 r j')) := by
  unfold probsOf
  show Ideal.div (e (ix2 r j)) (sumOf e (ix2 r j)) = _
  rw [sumOf_apply]

theorem tileOf_apply (p : FVec Ideal S128x2048 .bf16) (V : FVec Ideal S2048x1024 .bf16) (r : Fin 128) (d : Fin 1024) :
    tileOf p V (ix3 (0 : Fin 1) r d) = ∑ j : Fin 2048, p (ix2 r j) * V (ix2 j d) := by
  unfold tileOf
  rw [shapeCast_ab_1ab_apply]
  exact matmul_zero_sum dot_S128x2048_S2048x1024_S128x1024_1_0_0_1_n_n 2048 rfl rfl none _ _ (ix2 r d) (fun j => ix2 r j) (fun j => ix2 j d) (outL r d) (outR r d)

/-! ## The payloads at an index -/

/-- What the once-per-batch projection stores at (j, e): row j of the block projected by the weights, at e. -/
theorem pay2_apply (xb : Vec Ideal S1x2048x1024 .f32) (w : FVec Ideal S1024x1024 .bf16) (j : Fin 2048) (e : Fin 1024) :
    k0_pay2 (F := Ideal) xb w (ix2 j e) = projRow (fun k => xb (ix3 (0 : Fin 1) j k)) (fun k e => w (ix2 k e)) e :=
  (congrFun (pay2_eq xb w) _).trans (projAll_apply xb w j e)
theorem pay3_apply (xb : Vec Ideal S1x2048x1024 .f32) (w : FVec Ideal S1024x1024 .bf16) (j : Fin 2048) (e : Fin 1024) :
    k0_pay3 (F := Ideal) xb w (ix2 j e) = projRow (fun k => xb (ix3 (0 : Fin 1) j k)) (fun k e => w (ix2 k e)) e :=
  (congrFun (pay3_eq xb w) _).trans (projAll_apply xb w j e)

/-- What a point stores in its output tile at (0, r, d): query row r of the tile attending to the keys and values it
    is given. -/
theorem pay4_apply (xq : Vec Ideal S1x128x1024 .f32) (w : FVec Ideal S1024x1024 .bf16) (K V : FVec Ideal S2048x1024 .bf16)
    (r : Fin 128) (d : Fin 1024) :
    k0_pay4 (F := Ideal) xq w K V (ix3 (0 : Fin 1) r d)
      = attend (projRow (fun k => xq (ix3 (0 : Fin 1) r k)) (fun k e => w (ix2 k e))) (fun j e => K (ix2 j e)) (fun j d => V (ix2 j d)) d := by
  rw [pay4_eq, tileOf_apply]
  unfold attend softmax
  refine Finset.sum_congr rfl fun j _ => congrArg (· * V (ix2 j d)) ?_
  have hs : (fun j => scoresOf (queries xq w) K (ix2 r j))
      = score (projRow (fun k => xq (ix3 (0 : Fin 1) r k)) (fun k e => w (ix2 k e))) (fun j e => K (ix2 j e)) :=
    funext fun j => (scoresOf_apply _ K r j).trans (by rw [show (fun e => queries xq w (ix2 r e)) = _ from funext fun e => queries_apply xq w r e])
  rw [probsOf_apply, expOf_apply, hs]
  exact congrArg _ (Finset.sum_congr rfl fun j' _ => by rw [expOf_apply, hs])

end Cert.KernelIdeal.Body

end
-- ==== Proof.KernelCarried.lean ====
/-
  What the run leaves at every grid point: the carried keys and values, and the output tile.

  The two scratch buffers are written only at a batch's first point (t % 16 = 0), with the batch's keys and values —
  each row j the projection row of row j of batch t / 16 of x, by wk and by wv — and every later point of the batch
  leaves them as it found them. By induction on the point, after point t they hold the keys and values of batch
  t / 16. Every point's output tile is the attention of its 128 query rows (rows 128·(t % 16) + r of the batch)
  against the keys and values of its batch: at a first point those it has just stored, at any other those the point
  before left, which are the same.
-/
import proofs.«133282_j2645699854594_2_alg».proof.Proof.KernelBlocks
import proofs.«133282_j2645699854594_2_alg».proof.Proof.KernelStages

set_option maxRecDepth 16384

noncomputable section

namespace Cert.KernelIdeal.Carried

open Cert.KernelIdeal Cert.KernelIdeal.Gen Cert.KernelIdeal.Pieces Cert.KernelIdeal.Blocks Cert.KernelIdeal.Body Cert.Attention
open Idealize.ShloMosaic Idealize.ShloMosaic.TcCoe Idealize.ShloMosaic.ValueIdx Idealize.SL.Sem

variable (m : (ℓ : Loc nD τ sig) → Buf (Elt Ideal) ℓ)

/-- The argument arrays on a device. -/
abbrev X (c : Dev nD) : S4x2048x1024.Idx → EReal := m ((c : Thread nD τ).loc main_arg0)
abbrev Wq (c : Dev nD) : S1024x1024.Idx → EReal := m ((c : Thread nD τ).loc main_arg1)
abbrev Wk (c : Dev nD) : S1024x1024.Idx → EReal := m ((c : Thread nD τ).loc main_arg2)
abbrev Wv (c : Dev nD) : S1024x1024.Idx → EReal := m ((c : Thread nD τ).loc main_arg3)

/-- A projection row of the block at point t is the projection row of batch t / 16 of x, for each weight window. -/
theorem row_q (c : Dev nD) (t : Fin cfg0.N) (b : Fin 4) (hb : b.val = t.val / 16) (r : Fin 128) (row : Fin 2048)
    (hrow : row.val = 128 * (t.val % 16) + r.val) :
    projRow (fun k => tile (grid0.coords t) (iblk m c 0 t) (ix3 (0 : Fin 1) r k)) (fun k e => (iblk m c 1 t : Vec Ideal S1024x1024 .bf16) (ix2 k e))
      = projRow (fun k => X m c (ix3 b row k)) (fun k e => Wq m c (ix2 k e)) := by
  have hq : (grid0.coords t 1).val = t.val % 16 := (idx_facts t).2.2.2.2.2.2.2.2.2.2.2.2
  have hx : (fun k => tile (grid0.coords t) (iblk m c 0 t) (ix3 (0 : Fin 1) r k)) = fun k => X m c (ix3 b row k) :=
    funext fun k => (tile_apply (grid0.coords t) (iblk m c 0 t) r k row (by rw [hq]; exact hrow)).trans (blk_x m c t b hb row k)
  have hw : (fun k e => (iblk m c 1 t : Vec Ideal S1024x1024 .bf16) (ix2 k e)) = fun k e => Wq m c (ix2 k e) :=
    funext fun k => funext fun e => blk_w1 m c t k e
  exact congrArg₂ projRow hx hw

theorem row_k (c : Dev nD) (t : Fin cfg0.N) (b : Fin 4) (hb : b.val = t.val / 16) (j : Fin 2048) :
    projRow (fun k => (iblk m c 0 t : Vec Ideal S1x2048x1024 .f32) (ix3 (0 : Fin 1) j k)) (fun k e => (iblk m c 2 t : Vec Ideal S1024x1024 .bf16) (ix2 k e))
      = projRow (fun k => X m c (ix3 b j k)) (fun k e => Wk m c (ix2 k e)) := by
  have hx : (fun k => (iblk m c 0 t : Vec Ideal S1x2048x1024 .f32) (ix3 (0 : Fin 1) j k)) = fun k => X m c (ix3 b j k) :=
    funext fun k => blk_x m c t b hb j k
  have hw : (fun k e => (iblk m c 2 t : Vec Ideal S1024x1024 .bf16) (ix2 k e)) = fun k e => Wk m c (ix2 k e) :=
    funext fun k => funext fun e => blk_w2 m c t k e
  exact congrArg₂ projRow hx hw

theorem row_v (c : Dev nD) (t : Fin cfg0.N) (b : Fin 4) (hb : b.val = t.val / 16) (j : Fin 2048) :
    projRow (fun k => (iblk m c 0 t : Vec Ideal S1x2048x1024 .f32) (ix3 (0 : Fin 1) j k)) (fun k e => (iblk m c 3 t : Vec Ideal S1024x1024 .bf16) (ix2 k e))
      = projRow (fun k => X m c (ix3 b j k)) (fun k e => Wv m c (ix2 k e)) := by
  have hx : (fun k => (iblk m c 0 t : Vec Ideal S1x2048x1024 .f32) (ix3 (0 : Fin 1) j k)) = fun k => X m c (ix3 b j k) :=
    funext fun k => blk_x m c t b hb j k
  have hw : (fun k e => (iblk m c 3 t : Vec Ideal S1024x1024 .bf16) (ix2 k e)) = fun k e => Wv m c (ix2 k e) :=
    funext fun k => funext fun e => blk_w3 m c t k e
  exact congrArg₂ projRow hx hw

/-- The keys and values of batch b, by rows. -/
abbrev keysOf (c : Dev nD) (b : Fin 4) : Fin 2048 → Fin 1024 → EReal := fun j => projRow (fun k => X m c (ix3 b j k)) (fun k e => Wk m c (ix2 k e))
abbrev valuesOf (c : Dev nD) (b : Fin 4) : Fin 2048 → Fin 1024 → EReal := fun j => projRow (fun k => X m c (ix3 b j k)) (fun k e => Wv m c (ix2 k e))

/-- What the two scratch buffers hold after point n: the keys and the values of batch b. -/
def Holds (c : Dev nD) (n : ℕ) (h : n < cfg0.N) (b : Fin 4) : Prop :=
  (∀ (j : Fin 2048) (e : Fin 1024), ((outsAt0 m c n h).2.1 : Vec Ideal S2048x1024 .bf16) (ix2 j e) = keysOf m c b j e)
  ∧ (∀ (j : Fin 2048) (e : Fin 1024), ((outsAt0 m c n h).2.2 : Vec Ideal S2048x1024 .bf16) (ix2 j e) = valuesOf m c b j e)

/-- A batch's first point stores its keys and values. -/
theorem holds_first (c : Dev nD) (t : Fin cfg0.N) (h0 : t.val % 16 = 0) (b : Fin 4) (hb : b.val = t.val / 16) :
    Holds m c t.val t.isLt b := by
  unfold Holds
  rw [outsAt0_A m c t h0]
  dsimp only
  refine ⟨fun j e => ?_, fun j e => ?_⟩
  · refine (congrFun (keys_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)) (ix2 j e)).trans ?_
    refine (pay2_apply (iblk m c 0 t) (iblk m c 2 t) j e).trans ?_
    exact congrFun (row_k m c t b hb j) e
  · refine (congrFun (values_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)) (ix2 j e)).trans ?_
    refine (pay3_apply (iblk m c 0 t) (iblk m c 3 t) j e).trans ?_
    exact congrFun (row_v m c t b hb j) e

/-- After every point the scratch buffers hold the keys and values of the point's batch: by induction on the point. -/
theorem holds (c : Dev nD) (n : ℕ) : ∀ (h : n < cfg0.N) (b : Fin 4), b.val = n / 16 → Holds m c n h b := by
  induction n with
  | zero => intro h b hb; exact holds_first m c ⟨0, h⟩ rfl b hb
  | succ n ih =>
    intro h b hb
    by_cases h0 : (n + 1) % 16 = 0
    · exact holds_first m c ⟨n + 1, h⟩ h0 b hb
    · obtain ⟨ih1, ih2⟩ := ih (Nat.lt_of_succ_lt h) b (by omega)
      unfold Holds
      rw [outsAt0_B m c ⟨n + 1, h⟩ h0]
      dsimp only
      exact ⟨ih1, ih2⟩

/-- Every point's output tile: row r, column d is attention at (batch, 128·(t % 16) + r, d). -/
theorem tile_value (c : Dev nD) (t : Fin cfg0.N) (b : Fin 4) (hb : b.val = t.val / 16) (r : Fin 128) (d : Fin 1024) (row : Fin 2048)
    (hrow : row.val = 128 * (t.val % 16) + r.val) :
    ((outsAt0 m c t.val t.isLt).1 : Vec Ideal S1x128x1024 .f32) (ix3 (0 : Fin 1) r d) = attention (X m c) (Wq m c) (Wk m c) (Wv m c) (ix3 b row d) := by
  have hN : cfg0.N = 64 := N_0
  show _ = attend (projRow (fun k => X m c (ix3 b row k)) (fun k e => Wq m c (ix2 k e))) (keysOf m c b) (valuesOf m c b) d
  by_cases h0 : t.val % 16 = 0
  · rw [outsAt0_A m c t h0]
    dsimp only
    refine (congrFun (tile_A (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (iblk m c 0 t) (iblk m c 1 t) (iblk m c 2 t) (iblk m c 3 t)) (ix3 (0 : Fin 1) r d)).trans ?_
    refine (pay4_apply (tile (grid0.coords t) (iblk m c 0 t)) (iblk m c 1 t) (k0_pay2 (F := Ideal) (iblk m c 0 t) (iblk m c 2 t)) (k0_pay3 (F := Ideal) (iblk m c 0 t) (iblk m c 3 t)) r d).trans ?_
    have hK : (fun (j : Fin 2048) (e : Fin 1024) => k0_pay2 (F := Ideal) (iblk m c 0 t) (iblk m c 2 t) (ix2 j e)) = keysOf m c b :=
      funext fun j => funext fun e => (pay2_apply (iblk m c 0 t) (iblk m c 2 t) j e).trans (congrFun (row_k m c t b hb j) e)
    have hV : (fun (j : Fin 2048) (e : Fin 1024) => k0_pay3 (F := Ideal) (iblk m c 0 t) (iblk m c 3 t) (ix2 j e)) = valuesOf m c b :=
      funext fun j => funext fun e => (pay3_apply (iblk m c 0 t) (iblk m c 3 t) j e).trans (congrFun (row_v m c t b hb j) e)
    rw [row_q m c t b hb r row hrow, hK, hV]
  · have hpos : t.val ≠ 0 := fun hz => h0 (by rw [hz])
    obtain ⟨p1, p2⟩ := holds m c (t.val - 1) (Nat.lt_of_le_of_lt (Nat.sub_le _ _) t.isLt) b (by omega)
    rw [outsAt0_B m c t h0]
    dsimp only
    refine (congrFun (tile_B (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2.1 (outsAt0 m c (t.val - 1) (Nat.lt_of_le_of_lt (Nat.sub_le _ _) t.isLt)).2.2) (ix3 (0 : Fin 1) r d)).trans ?_
    refine (pay4_apply (tile (grid0.coords t) (iblk m c 0 t)) (iblk m c 1 t) (outsAt0 m c (t.val - 1) (Nat.lt_of_le_of_lt (Nat.sub_le _ _) t.isLt)).2.1
      (outsAt0 m c (t.val - 1) (Nat.lt_of_le_of_lt (Nat.sub_le _ _) t.isLt)).2.2 r d).trans ?_
    have hK : (fun (j : Fin 2048) (e : Fin 1024) => ((outsAt0 m c (t.val - 1) (Nat.lt_of_le_of_lt (Nat.sub_le _ _) t.isLt)).2.1 : Vec Ideal S2048x1024 .bf16) (ix2 j e)) = keysOf m c b :=
      funext fun j => funext fun e => p1 j e
    have hV : (fun (j : Fin 2048) (e : Fin 1024) => ((outsAt0 m c (t.val - 1) (Nat.lt_of_le_of_lt (Nat.sub_le _ _) t.isLt)).2.2 : Vec Ideal S2048x1024 .bf16) (ix2 j e)) = valuesOf m c b :=
      funext fun j => funext fun e => p2 j e
    rw [row_q m c t b hb r row hrow, hK, hV]

end Cert.KernelIdeal.Carried

end
-- ==== Proof.KernelArray.lean ====
/-
  The kernel's result array is attention of the argument arrays.

  Point t writes back its output tile as block (t / 16, t % 16, 0) of the [4, 2048, 1024] result, blocks of
  [1, 128, 1024]: entry (0, r, d) of the tile lands at (t / 16, 128·(t % 16) + r, d), which is where the tile's value
  is attention's. Every index (i₀, i₁, i₂) of the result lies in the block of point 16·i₀ + i₁ / 128, and every point
  writes back, so the blocks cover the array and it ends holding attention everywhere.
-/
import proofs.«133282_j2645699854594_2_alg».proof.Proof.KernelCarried
import proofs.«133282_j2645699854594_2_alg».proof.Proof.Gen.KernelIdeal.Value

set_option maxRecDepth 16384

noncomputable section

namespace Cert.KernelIdeal.Result

open Cert.KernelIdeal Cert.KernelIdeal.Gen Cert.KernelIdeal.Blocks Cert.KernelIdeal.Carried Cert.Attention
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- Attention of the argument arrays as launched. -/
abbrev result (c : Dev nD) : S4x2048x1024.Idx → EReal := attention (X m c) (Wq m c) (Wk m c) (Wv m c)

/-- Point t's tile at y is the result at the array index y lands on. -/
theorem tile_at (c : Dev nD) (t : Fin cfg0.N) (y : S1x128x1024.Idx) (i : S4x2048x1024.Idx) (h0 : (i 0).val = t.val / 16)
    (h1 : (i 1).val = 128 * (t.val % 16) + (y 1).val) (h2 : (i 2).val = (y 2).val) :
    ((outsAt0 m c t.val t.isLt).1 : Vec Ideal S1x128x1024 .f32) y = result m c i := by
  obtain ⟨u, r, d, rfl⟩ : ∃ (u : Fin 1) (r : Fin 128) (d : Fin 1024), y = ix3 u r d := ⟨y 0, y 1, y 2, eq_ix3 y⟩
  obtain ⟨b, row, d', rfl⟩ : ∃ (b : Fin 4) (row : Fin 2048) (d' : Fin 1024), i = ix3 b row d' := ⟨i 0, i 1, i 2, eq_ix3 i⟩
  obtain rfl : u = 0 := Subsingleton.elim _ _
  obtain rfl : d' = d := Fin.ext h2
  exact tile_value m c t b h0 r d' row h1

/-- What point t writes back is block t of the result. -/
theorem flushed_eq (c : Dev nD) (t : Fin cfg0.N) :
    (dats m 0 c).flushed 4 t = ((cfg0.win 4).blk t).view.read (Elt Ideal) (result m c) := by
  rw [Value.flushed4]
  obtain ⟨-, -, -, -, -, -, -, -, -, e0, e1, e2, -⟩ := idx_facts t
  funext y
  show ((outsAt0 m c t.val t.isLt).1 : Vec Ideal S1x128x1024 .f32) y = result m c (((cfg0.win 4).blk t).view.emb y)
  refine tile_at m c t y _ ?_ ?_ ?_
  · show win0_4.index t (0 : Fin 3) * 1 + 1 * (y 0).val = t.val / 16
    have hy : (y 0).val < 1 := (y 0).isLt
    omega
  · show win0_4.index t (1 : Fin 3) * 128 + 1 * (y 1).val = 128 * (t.val % 16) + (y 1).val
    omega
  · show win0_4.index t (2 : Fin 3) * 1024 + 1 * (y 2).val = (y 2).val
    omega

/-- An index of the array is in point t's block iff each coordinate is in the block's range on its axis. -/
theorem mem_blk (t : Fin cfg0.N) (i : S4x2048x1024.Idx) :
    i ∈ ((cfg0.win 4).blk t).view.set ↔ ∀ a : Fin 3, win0_4.index t a * S1x128x1024.size a ≤ (i a).val ∧ (i a).val < win0_4.index t a * S1x128x1024.size a + S1x128x1024.size a := by
  show i ∈ ((View.whole main_v3).slice (win0_4.rect t)).set ↔ _
  rw [View.set_slice_whole, Rect.mem_set_unit]
  exact Iff.rfl

/-- Every index is in the block of the point of its batch and its row's tile. -/
theorem cover (i : S4x2048x1024.Idx) : ∃ t : Fin cfg0.N, (cfg0.win 4).flush t = true ∧ i ∈ ((cfg0.win 4).blk t).view.set := by
  have hN : cfg0.N = 64 := N_0
  have h0 : (i 0).val < 4 := (i 0).isLt
  have h1 : (i 1).val < 2048 := (i 1).isLt
  have h2 : (i 2).val < 1024 := (i 2).isLt
  obtain ⟨t, tv⟩ : ∃ t : Fin cfg0.N, t.val = 16 * (i 0).val + (i 1).val / 128 := ⟨⟨16 * (i 0).val + (i 1).val / 128, by omega⟩, rfl⟩
  obtain ⟨-, -, -, -, -, -, -, -, -, e0, e1, e2, -⟩ := idx_facts t
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 128 ≤ (i 1).val ∧ (i 1).val < win0_4.index t (1 : Fin 3) * 128 + 128
    omega
  | ⟨2, _⟩ =>
    show win0_4.index t (2 : Fin 3) * 1024 ≤ (i 2).val ∧ (i 2).val < win0_4.index t (2 : Fin 3) * 1024 + 1024
    omega

/-- The result array after the run. -/
theorem final (c : Dev nD) : (dats m 0 c).arrAt 4 cfg0.N = result m c :=
  (dats m 0 c).arrAt_eq_of_cover 4 (result m c) (fun t _ => flushed_eq m c t) (cover)

/-- The run: the result array at attention of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Result

end
-- ==== Proof.lean ====
/-
  A fused kernel — query, key and value projections of x[4, 2048, 1024] by three weight matrices, then single-head
  softmax attention per batch, 128 query rows per grid point, the batch's keys and values computed once at the batch's
  first point and carried in scratch — against the plain reference: three projections, q·kᵀ / √1024, softmax along the
  last axis, the weighted sum with v.

  Over the extended reals both compute `Cert.Attention.attention` of the arguments (Proof/AttentionSpec.lean):
    the reference, stage by stage (Proof/RefAttention.lean) — its quotient by √1024 is the product with 1/32, which is
      exactly the kernel's scale word 2⁻⁵, on every extended real, and its one extra maximum with −∞ is absorbed;
    the kernel, point by point — each payload read at an index (Proof/KernelStages.lean), each case's stores read back
      as payloads (Proof/KernelPieces.lean), the blocks at coordinates (Proof/KernelBlocks.lean), the carried keys and
      values by induction on the point and each output tile (Proof/KernelCarried.lean), the tiles covering the result
      array (Proof/KernelArray.lean).
  Sums are unordered and the format changes are the identity there, so the two sides are the same function term by
  term; finiteness of the inputs is not used. The idealized kernel is the kernel's own text read over the extended reals,
  no operation replaced, so `preserves` has nothing to state; the three frames are the generated ones (the reference's
  is its generated run with the result dropped).
-/
import proofs.«133282_j2645699854594_2_alg».proof.Defs
import proofs.«133282_j2645699854594_2_alg».proof.Proof.Gen.Kernel
import proofs.«133282_j2645699854594_2_alg».proof.Proof.Gen.Kernel.Skeleton
import proofs.«133282_j2645699854594_2_alg».proof.Proof.Gen.Kernel.Launch
import proofs.«133282_j2645699854594_2_alg».proof.Proof.Gen.Kernel.Points
import proofs.«133282_j2645699854594_2_alg».proof.Proof.Gen.Kernel.Frame
import proofs.«133282_j2645699854594_2_alg».proof.Proof.Gen.KernelIdeal
import proofs.«133282_j2645699854594_2_alg».proof.Proof.Gen.KernelIdeal.Skeleton
import proofs.«133282_j2645699854594_2_alg».proof.Proof.Gen.KernelIdeal.Launch
import proofs.«133282_j2645699854594_2_alg».proof.Proof.Gen.KernelIdeal.Points
import proofs.«133282_j2645699854594_2_alg».proof.Proof.Gen.KernelIdeal.Frame
import proofs.«133282_j2645699854594_2_alg».proof.Proof.Gen.ReferenceIdeal
import proofs.«133282_j2645699854594_2_alg».proof.Proof.Gen.Pre_finite_inputs
import proofs.«133282_j2645699854594_2_alg».proof.Proof.Gen.KernelIdeal.Value
import proofs.«133282_j2645699854594_2_alg».proof.Proof.Gen.ReferenceIdeal.Run
import proofs.«133282_j2645699854594_2_alg».proof.Proof.Gen.ReferenceIdeal.Read
import proofs.«133282_j2645699854594_2_alg».proof.Proof.RefAttention
import proofs.«133282_j2645699854594_2_alg».proof.Proof.KernelArray
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at attention of arguments that agree. -/
theorem algebraic : Cert.algebraic_KernelIdeal_ReferenceIdeal := by
  intro m ρ m' ρ' _ hagree
  refine ⟨fun c => Cert.KernelIdeal.Result.result m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v18_eq, Cert.ReferenceIdeal.RefValue.result_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
